-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x128x3 : Shape := ⟨3, ![131072, 128, 3]⟩
abbrev S256x256 : Shape := ⟨2, ![256, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x128x3 : S_.BroadcastsInDim S131072x128x3 (![] : Fin 0 → Fin S131072x128x3.rank)
  reducesTo_S131072x128x3_S_d0_1_2 : S131072x128x3.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S256x32 .f32) (main_arg5 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S131072x256 .f32) (main_arg1 : FVec F S131072x128x3 .f32) (main_arg2 : FVec F S256x256 .f32) (main_arg3 : FVec F S256 .f32) (main_arg4 : FVec F S256x32 .f32) (main_arg5 : FVec F S32 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x128x3 .f32 := Host.absf main_arg1
  let main_cst_0 : FVec F S_ .f32 := constant S_ .f32 0x7F800000#32
  let main_v5 : FVec F S131072x128x3 .f32 := broadcastInDim S131072x128x3 ![] bcast_S_S131072x128x3 main_cst_0
  let main_v6 : IVec S131072x128x3 1 := cmpf .olt main_v4 main_v5
  let main_c_1 : IVec S_ 1 := constantI S_ 1 1#1
  let main_v7 : IVec S_ 1 := (fun x v => Host.reduce IntOp.andi x v reducesTo_S131072x128x3_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S131072x256 : Shape := ⟨2, ![131072, 256]⟩
abbrev S131072x128x3 : Shape := ⟨3, ![131072, 128, 3]⟩
abbrev S256x256 : Shape := ⟨2, ![256, 256]⟩
abbrev S256 : Shape := ⟨1, ![256]⟩
abbrev S256x32 : Shape := ⟨2, ![256, 32]⟩
abbrev S32 : Shape := ⟨1, ![32]⟩
abbrev S256x32x8 : Shape := ⟨3, ![256, 32, 8]⟩
abbrev S_ : Shape := ⟨0, ![]⟩
abbrev S256x32x16 : Shape := ⟨3, ![256, 32, 16]⟩
abbrev S1 : Shape := ⟨1, ![1]⟩
abbrev S256x512 : Shape := ⟨2, ![256, 512]⟩
abbrev S32x8 : Shape := ⟨2, ![32, 8]⟩
abbrev S32x16 : Shape := ⟨2, ![32, 16]⟩
abbrev S512 : Shape := ⟨1, ![512]⟩
abbrev S131072x512 : Shape := ⟨2, ![131072, 512]⟩
abbrev S8192x256 : Shape := ⟨2, ![8192, 256]⟩
abbrev S8192x512 : Shape := ⟨2, ![8192, 512]⟩
abbrev S1x512 : Shape := ⟨2, ![1, 512]⟩
abbrev S131072x32x16 : Shape := ⟨3, ![131072, 32, 16]⟩

abbrev nBuf : Space → Nat
  | .hbm => 22
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S131072x128x3, .f32⟩
  | .hbm, ⟨2, _⟩ => ⟨S256x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S256x32x8, .f32⟩
  | .hbm, ⟨7, _⟩ => ⟨S_, .f32⟩
  | .hbm, ⟨8, _⟩ => ⟨S256x32x16, .f32⟩
  | .hbm, ⟨9, _⟩ => ⟨S_, .i32⟩
  | .hbm, ⟨10, _⟩ => ⟨S1, .i32⟩
  | .hbm, ⟨11, _⟩ => ⟨S256x32x16, .f32⟩
  | .hbm, ⟨12, _⟩ => ⟨S256x512, .f32⟩
  | .hbm, ⟨13, _⟩ => ⟨S32x8, .f32⟩
  | .hbm, ⟨14, _⟩ => ⟨S_, .f32⟩
  | .hbm, ⟨15, _⟩ => ⟨S32x16, .f32⟩
  | .hbm, ⟨16, _⟩ => ⟨S_, .i32⟩
  | .hbm, ⟨17, _⟩ => ⟨S1, .i32⟩
  | .hbm, ⟨18, _⟩ => ⟨S32x16, .f32⟩
  | .hbm, ⟨19, _⟩ => ⟨S512, .f32⟩
  | .hbm, ⟨20, _⟩ => ⟨S131072x512, .f32⟩
  | .hbm, ⟨21, _⟩ => ⟨S131072x32x16, .f32⟩
  | .local _ .vmem, ⟨0, _⟩ => ⟨S8192x256, .f32⟩
  | .local _ .vmem, ⟨1, _⟩ => ⟨S8192x256, .f32⟩
  | .local _ .vmem, ⟨2, _⟩ => ⟨S256x512, .f32⟩
  | .local _ .vmem, ⟨3, _⟩ => ⟨S512, .f32⟩
  | .local _ .vmem, ⟨4, _⟩ => ⟨S8192x512, .f32⟩
  | .local _ .vmem, ⟨5, _⟩ => ⟨S8192x512, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x256_S256x32x8 : S256x256.ShapeCasts S256x32x8
  bcast_S_S256x32x16 : S_.BroadcastsInDim S256x32x16 (![] : Fin 0 → Fin S256x32x16.rank)
  bcast_S_S1 : S_.BroadcastsInDim S1 (![] : Fin 0 → Fin S1.rank)
  shapeCasts_S256x32x16_S256x512 : S256x32x16.ShapeCasts S256x512
  shapeCasts_S256_S32x8 : S256.ShapeCasts S32x8
  bcast_S_S32x16 : S_.BroadcastsInDim S32x16 (![] : Fin 0 → Fin S32x16.rank)
  shapeCasts_S32x16_S512 : S32x16.ShapeCasts S512
  inb_S8192x256_S8192x256_0_0 : ∀ a, (![0, 0] : Fin 2 → Nat) a + S8192x256.size a ≤ S8192x256.size a
  h_S8192x256 : 0 < S8192x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S8192x512 : S1x512.Broadcasts S8192x512
  inb_S8192x512_S8192x512_0_0 : ∀ a, (![0, 0] : Fin 2 → Nat) a + S8192x512.size a ≤ S8192x512.size a
  h_S8192x512 : 0 < S8192x512.numel
  shapeCasts_S131072x512_S131072x32x16 : S131072x512.ShapeCasts S131072x32x16
  scatter_S256x32x16_S1_S256x32x8_012_n_2_0_wf : ScatterDims.WF S256x32x16 S1 S256x32x8 [0, 1, 2] [] [2] 0
  scatter_S32x16_S1_S32x8_01_n_1_0_wf : ScatterDims.WF S32x16 S1 S32x8 [0, 1] [] [1] 0
  dot_S8192x256_S256x512_S8192x512_1_0_0_1_n_n_wf : DotDims.WF S8192x256 S256x512 S8192x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x512.size a ≤ S131072x512.size a
  hwx0_3 : ∀ i : grid0.Coords, EltTy.bits .f32 = 32 ∨ (Rect.block (s := S131072x512) S8192x512.size (cc0_transform_3 i) (hinb0_3 i)).WholeWords (EltTy.packing .f32)

variable [Facts₀]

def scatter_S256x32x16_S1_S256x32x8_012_n_2_0 : ScatterDims S256x32x16 S1 S256x32x8 where
  updateWindowDims := [0, 1, 2]
  insertedWindowDims := []
  scatterDimsToOperandDims := [2]
  indexVectorDim := 0
  wf := scatter_S256x32x16_S1_S256x32x8_012_n_2_0_wf
def scatter_S32x16_S1_S32x8_01_n_1_0 : ScatterDims S32x16 S1 S32x8 where
  updateWindowDims := [0, 1]
  insertedWindowDims := []
  scatterDimsToOperandDims := [1]
  indexVectorDim := 0
  wf := scatter_S32x16_S1_S32x8_01_n_1_0_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8192x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x128x3 : Shape := ⟨3, ![131072, 128, 3]⟩
abbrev S256x256 : Shape := ⟨2, ![256, 256]⟩
abbrev S256 : Shape := ⟨1, ![256]⟩
abbrev S256x32 : Shape := ⟨2, ![256, 32]⟩
abbrev S32 : Shape := ⟨1, ![32]⟩
abbrev S1x256 : Shape := ⟨2, ![1, 256]⟩
abbrev S131072x32x8 : Shape := ⟨3, ![131072, 32, 8]⟩
abbrev S131072x32 : Shape := ⟨2, ![131072, 32]⟩
abbrev S1x32 : Shape := ⟨2, ![1, 32]⟩
abbrev S131072x32x1 : Shape := ⟨3, ![131072, 32, 1]⟩
abbrev S_ : Shape := ⟨0, ![]⟩
abbrev S131072x32x16 : Shape := ⟨3, ![131072, 32, 16]⟩

abbrev nBuf : Space → Nat
  | .hbm => 19
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x128x3, .f32⟩
  | .hbm, ⟨2, _⟩ => ⟨S256x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S131072x256, .f32⟩
  | .hbm, ⟨7, _⟩ => ⟨S1x256, .f32⟩
  | .hbm, ⟨8, _⟩ => ⟨S131072x256, .f32⟩
  | .hbm, ⟨9, _⟩ => ⟨S131072x256, .f32⟩
  | .hbm, ⟨10, _⟩ => ⟨S131072x32x8, .f32⟩
  | .hbm, ⟨11, _⟩ => ⟨S131072x32, .f32⟩
  | .hbm, ⟨12, _⟩ => ⟨S1x32, .f32⟩
  | .hbm, ⟨13, _⟩ => ⟨S131072x32, .f32⟩
  | .hbm, ⟨14, _⟩ => ⟨S131072x32, .f32⟩
  | .hbm, ⟨15, _⟩ => ⟨S131072x32x1, .f32⟩
  | .hbm, ⟨16, _⟩ => ⟨S_, .f32⟩
  | .hbm, ⟨17, _⟩ => ⟨S131072x32x8, .f32⟩
  | .hbm, ⟨18, _⟩ => ⟨S131072x32x16, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  shapeCasts_S131072x256_S131072x32x8 : S131072x256.ShapeCasts S131072x32x8
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  shapeCasts_S131072x32_S131072x32x1 : S131072x32.ShapeCasts S131072x32x1
  bcast_S_S131072x32x8 : S_.BroadcastsInDim S131072x32x8 (![] : Fin 0 → Fin S131072x32x8.rank)
  concatenates_S131072x32x8_S131072x32x8_S131072x32x16_d2 : Shape.Concatenates [S131072x32x8, S131072x32x8] S131072x32x16 2
  dot_S131072x256_S256x256_S131072x256_1_0_0_1_n_n_wf : DotDims.WF S131072x256 S256x256 S131072x256 [1] [0] [0] [1] [] []
  dot_S131072x256_S256x32_S131072x32_1_0_0_1_n_n_wf : DotDims.WF S131072x256 S256x32 S131072x32 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf

class Facts : Prop extends Facts₀ where

variable [Facts]
-- ==== Proof.LibScatter.lean ====
/-
  The host's `scatter` whose body returns the update (`x.at[…].set(u)`), read at an index.

  The operation is a left fold over the update's indices in row-major order: update index `j` lands on the
  operand index `resultIdx? j` (start plus window coordinate) and replaces the element there, or is dropped when
  that index is outside the operand. When every update index lands inside, at `g j`, and `g` is injective, no two
  updates meet, so the fold's order does not matter: the result holds `upd j` at `g j` and the operand's own
  element at every index outside the image of `g`. Stated for any dimension numbers, shapes and element type.
-/
import Idealize.ShloMosaic.PureOps.ShapeOps

namespace Cert.Lib.ScatterRead

open Idealize.ShloMosaic

variable {α : Type} {s si u : Shape} {w : Nat}

/-- One step of the fold: the update with row-major position `n` written over `r`. -/
def put (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The overwriting scatter is the fold of that step over all positions. -/
theorem scatter_eq_foldl (d : ScatterDims s si u) (x : s.Idx → α) (idx : IVec si w) (upd : u.Idx → α) :
    Host.scatter d (fun _ b => b) x idx upd = (List.finRange u.numel).foldl (put d idx upd) x := rfl

/-- A step whose update lands elsewhere (or nowhere) leaves the element at `i` alone. -/
theorem put_apply_of_ne (d : ScatterDims s si u) (idx : IVec si w) (upd : u.Idx → α) (r : s.Idx → α) (n : Fin u.numel)
    (i : s.Idx) (h : d.resultIdx? (u.rowMajor.symm n) idx ≠ some i) : put d idx upd r n i = r i := by
  unfold put
  generalize d.resultIdx? (u.rowMajor.symm n) idx = o at h ⊢
  cases o with
  | none => rfl
  | some k =>
    have hne : i ≠ k := fun e => h (by rw [e])
    exact if_neg hne

/-- A step whose update lands on `i` leaves the update's element there. -/
theorem put_apply_of_eq (d : ScatterDims s si u) (idx : IVec si w) (upd : u.Idx → α) (r : s.Idx → α) (n : Fin u.numel)
    (i : s.Idx) (h : d.resultIdx? (u.rowMajor.symm n) idx = some i) : put d idx upd r n i = upd (u.rowMajor.symm n) := by
  unfold put
  generalize d.resultIdx? (u.rowMajor.symm n) idx = o at h ⊢
  cases o with
  | none => exact absurd h (by simp)
  | some k =>
    have hk' : k = i := Option.some.inj h
    subst hk'
    exact if_pos rfl

/-- If no update of the list lands on `i`, the fold keeps the starting element there. -/
theorem foldl_put_miss (d : ScatterDims s si u) (idx : IVec si w) (upd : u.Idx → α) (L : List (Fin u.numel))
    (x : s.Idx → α) (i : s.Idx) (h : ∀ n ∈ L, d.resultIdx? (u.rowMajor.symm n) idx ≠ some i) :
    L.foldl (put d idx upd) x i = x i := by
  induction L generalizing x with
  | nil => rfl
  | cons a L ih =>
    rw [List.foldl_cons, ih _ (fun n hn => h n (List.mem_cons_of_mem a hn))]
    exact put_apply_of_ne d idx upd x a i (h a List.mem_cons_self)

/-- If some update of the list lands on `i`, and all that do carry the same value `b`, the fold ends with `b` there:
    after the last such update nothing touches the element again. -/
theorem foldl_put_hit (d : ScatterDims s si u) (idx : IVec si w) (upd : u.Idx → α) (L : List (Fin u.numel))
    (x : s.Idx → α) (i : s.Idx) (b : α)
    (hex : ∃ n ∈ L, d.resultIdx? (u.rowMajor.symm n) idx = some i)
    (hval : ∀ n ∈ L, d.resultIdx? (u.rowMajor.symm n) idx = some i → upd (u.rowMajor.symm n) = b) :
    L.foldl (put d idx upd) x i = b := by
  induction L generalizing x with
  | nil => obtain ⟨n, hn, _⟩ := hex; exact absurd hn List.not_mem_nil
  | cons a L ih =>
    rw [List.foldl_cons]
    by_cases hL : ∃ n ∈ L, d.resultIdx? (u.rowMajor.symm n) idx = some i
    · exact ih _ hL (fun n hn => hval n (List.mem_cons_of_mem a hn))
    · have hmiss : ∀ n ∈ L, d.resultIdx? (u.rowMajor.symm n) idx ≠ some i := fun n hn e => hL ⟨n, hn, e⟩
      rw [foldl_put_miss d idx upd L _ i hmiss]
      obtain ⟨n, hn, e⟩ := hex
      rcases List.mem_cons.mp hn with rfl | hn'
      · rw [put_apply_of_eq d idx upd x n i e]; exact hval n List.mem_cons_self e
      · exact absurd e (hmiss n hn')

/-- THE SCATTER ON THE IMAGE: when update index `j` lands at `g j` for every `j` and `g` is injective, the result
    at `g j` is the update's element at `j`. -/
theorem scatter_overwrite_image (d : ScatterDims s si u) (x : s.Idx → α) (idx : IVec si w) (upd : u.Idx → α)
    (g : u.Idx → s.Idx) (hres : ∀ j, d.resultIdx? j idx = some (g j)) (hinj : Function.Injective g) (j : u.Idx) :
    Host.scatter d (fun _ b => b) x idx upd (g j) = upd j := by
  rw [scatter_eq_foldl]
  refine foldl_put_hit d idx upd _ x (g j) (upd j) ⟨u.rowMajor j, List.mem_finRange _, ?_⟩ ?_
  · rw [Equiv.symm_apply_apply]; exact hres j
  · intro n _ e
    rw [hres] at e
    exact congrArg upd (hinj (Option.some.inj e))

/-- THE SCATTER OFF THE IMAGE: an operand index no update lands on keeps the operand's element. -/
theorem scatter_overwrite_off (d : ScatterDims s si u) (x : s.Idx → α) (idx : IVec si w) (upd : u.Idx → α)
    (g : u.Idx → s.Idx) (hres : ∀ j, d.resultIdx? j idx = some (g j)) (i : s.Idx) (hi : ∀ j, g j ≠ i) :
    Host.scatter d (fun _ b => b) x idx upd i = x i := by
  rw [scatter_eq_foldl]
  exact foldl_put_miss d idx upd _ x i (fun n _ e => hi _ (Option.some.inj ((hres _).symm.trans e)))

end Cert.Lib.ScatterRead
-- ==== Proof.Spec.lean ====
/-
  What the layer computes, as one function of its arguments, and the law that joins its two spellings.

  The layer maps a batch of 256 scalar features to 32 capsules of 16 entries. The first 8 entries of capsule `c` are the
  linear projection `x · W + b` at columns `8c … 8c+7`; the last 8 entries are zero (`capsuleAt`).
  One program computes it as a single product with a PADDED weight matrix of 512 columns, in which column `16c + h`
  is column `8c + h` of `W` for `h < 8` and a zero column otherwise, plus a bias row padded the same way (`flatAt`),
  and then reads row entry `16c + h` as entry `h` of capsule `c`. The two agree on every extended real: in a zero
  column each product `x · 0` is `0` (also at an infinite `x`: the extended reals' product with zero is zero), the sum
  of zeros is zero and the padded bias adds zero. No finiteness of the arguments is used.
-/
import Idealize.ShloMosaic.PureOps.Ideal
import Idealize.ShloMosaic.Lib.ValueIdx

noncomputable section

namespace Cert.Capsule

open Idealize.ShloMosaic Idealize.ShloMosaic.ValueIdx

/-- The shapes of the three arguments that matter and of the two forms of the result. -/
abbrev SX : Shape := ⟨2, ![131072, 256]⟩
abbrev SW : Shape := ⟨2, ![256, 256]⟩
abbrev SB : Shape := ⟨1, ![256]⟩
abbrev SWp : Shape := ⟨2, ![256, 512]⟩
abbrev SBp : Shape := ⟨1, ![512]⟩
abbrev SFlat : Shape := ⟨2, ![131072, 512]⟩
abbrev SOut : Shape := ⟨3, ![131072, 32, 16]⟩

/-- Entry `h` of capsule `c` of batch row `r`: the projection at column `8c + h` in the first half, zero in the second. -/
def capsuleAt (x : SX.Idx → EReal) (W : SW.Idx → EReal) (b : SB.Idx → EReal) (r : Fin 131072) (c : Fin 32) (h : Fin 16) : EReal :=
  if hh : h.val < 8 then
    (∑ k : Fin 256, x (ix2 r k) * W (ix2 k ⟨8 * c.val + h.val, by omega⟩)) + b (ix1 ⟨8 * c.val + h.val, by omega⟩)
  else 0

/-- The result, indexed by (row, capsule, entry). -/
def capsules (x : SX.Idx → EReal) (W : SW.Idx → EReal) (b : SB.Idx → EReal) : SOut.Idx → EReal := fun i =>
  capsuleAt x W b ⟨(i 0).val, (i 0).isLt⟩ ⟨(i 1).val, (i 1).isLt⟩ ⟨(i 2).val, (i 2).isLt⟩

/-- The padded weight: column `q = 16c + h` is column `8c + h` of `W` when `h < 8`, else zero. -/
def padWAt (W : SW.Idx → EReal) (k : Fin 256) (q : Fin 512) : EReal :=
  if hh : q.val % 16 < 8 then W (ix2 k ⟨8 * (q.val / 16) + q.val % 16, by omega⟩) else 0

/-- The padded bias, likewise. -/
def padBAt (b : SB.Idx → EReal) (q : Fin 512) : EReal :=
  if hh : q.val % 16 < 8 then b (ix1 ⟨8 * (q.val / 16) + q.val % 16, by omega⟩) else 0

/-- The padded weight and bias as arrays. -/
def padW (W : SW.Idx → EReal) : SWp.Idx → EReal := fun j => padWAt W ⟨(j 0).val, (j 0).isLt⟩ ⟨(j 1).val, (j 1).isLt⟩
def padB (b : SB.Idx → EReal) : SBp.Idx → EReal := fun j => padBAt b ⟨(j 0).val, (j 0).isLt⟩

/-- Row `r`, column `q` of the product with the padded weight plus the padded bias. -/
def flatAt (x : SX.Idx → EReal) (W : SW.Idx → EReal) (b : SB.Idx → EReal) (r : Fin 131072) (q : Fin 512) : EReal :=
  (∑ k : Fin 256, x (ix2 r k) * padWAt W k q) + padBAt b q

/-- The same as an array of 512-entry rows. -/
def flat (x : SX.Idx → EReal) (W : SW.Idx → EReal) (b : SB.Idx → EReal) : SFlat.Idx → EReal := fun j =>
  flatAt x W b ⟨(j 0).val, (j 0).isLt⟩ ⟨(j 1).val, (j 1).isLt⟩

/-- THE LAW: entry `16c + h` of a padded row is entry `h` of capsule `c`. In the first half the padded column is the
    column of `W` and the padded bias the bias; in the second half every product is with zero. -/
theorem flatAt_eq_capsuleAt (x : SX.Idx → EReal) (W : SW.Idx → EReal) (b : SB.Idx → EReal) (r : Fin 131072) (c : Fin 32)
    (h : Fin 16) : flatAt x W b r ⟨16 * c.val + h.val, by omega⟩ = capsuleAt x W b r c h := by
  have hq : (16 * c.val + h.val) % 16 = h.val := by omega
  have hd : (16 * c.val + h.val) / 16 = c.val := by omega
  unfold flatAt capsuleAt padWAt padBAt
  by_cases hh : h.val < 8
  · have hh' : (16 * c.val + h.val) % 16 < 8 := by omega
    have e : (⟨8 * ((16 * c.val + h.val) / 16) + (16 * c.val + h.val) % 16, by omega⟩ : Fin 256) = ⟨8 * c.val + h.val, by omega⟩ :=
      Fin.ext (by show 8 * ((16 * c.val + h.val) / 16) + (16 * c.val + h.val) % 16 = 8 * c.val + h.val; omega)
    simp only [dif_pos hh, dif_pos hh', e]
  · have hh' : ¬ (16 * c.val + h.val) % 16 < 8 := by omega
    simp only [dif_neg hh, dif_neg hh', mul_zero, Finset.sum_const_zero, add_zero]

end Cert.Capsule

end
-- ==== Proof.HostPad.lean ====
/-
  What the host lines before the kernel leave in the padded weight and the padded bias.

  The weight `W` [256, 256] is viewed as [256, 32, 8] and written over a [256, 32, 16] array of zeros at offset 0 of the
  last axis; the result is viewed as [256, 512]. The write is a scatter with ONE start index, the zero vector, whose
  window is the whole update: update index `(k, c, h)` lands on `(k, c, h)`, always inside and never twice. So the
  array holds `W` at `(k, c, h)` for `h < 8` and its zeros for `h ≥ 8`, and column `q = 16c + h` of the [256, 512] view is
  column `8c + h` of `W` in the first case and zero in the second: the padded weight of the specification. The bias
  [256] is treated the same way through [32, 8] into [32, 16] and back to [512].
-/
import proofs.«124166_j29557964931628_2_alg».proof.Proof.Gen.KernelIdeal.Frame
import proofs.«124166_j29557964931628_2_alg».proof.Proof.LibScatter
import proofs.«124166_j29557964931628_2_alg».proof.Proof.Spec
import Idealize.ShloMosaic.Lib.StableHlo.Run
import Idealize.ShloMosaic.Lib.Pipeline.Value
import Idealize.ShloMosaic.PureOps.Ideal.Laws

noncomputable section

namespace Cert.KernelIdeal.HostPad

open Cert.KernelIdeal Cert.KernelIdeal.Gen Idealize.ShloMosaic Idealize.ShloMosaic.TcCoe Idealize.SL.Sem
open Idealize.ShloMosaic.StableHlo Idealize.ShloMosaic.ValueIdx Cert.Capsule Cert.Lib.ScatterRead

/-- The two writes' dimension numbers. -/
abbrev scW := scatter_S256x32x16_S1_S256x32x8_012_n_2_0
abbrev scB := scatter_S32x16_S1_S32x8_01_n_1_0

/-! ## The weight -/

/-- Where update index `(k, c, h)` of the weight lands: the same coordinates in the wider array. -/
def landW (j : S256x32x8.Idx) : S256x32x16.Idx :=
  ix3 (⟨(j 0).val, (j 0).isLt⟩ : Fin 256) (⟨(j 1).val, (j 1).isLt⟩ : Fin 32)
    (⟨(j 2).val, by have h2 : (j 2).val < 8 := (j 2).isLt; omega⟩ : Fin 16)

/-- Every window starts at zero: the one start index is the zero vector, and only the last axis reads it. -/
theorem startW (idx : IVec S1 32) (hidx : ∀ k, idx k = 0#32) (j : S256x32x8.Idx) (a : Fin 3) : scW.start j idx a = 0 := by
  unfold ScatterDims.start
  split
  · rw [hidx]; rfl
  · rfl

/-- The window coordinate on each axis is the update's own coordinate there. -/
theorem windowW (j : S256x32x8.Idx) (a : Fin 3) : scW.window j a = (j a).val := by
  have h0 : scW.window j (0 : Fin 3) = (j 0).val := by
    unfold ScatterDims.window; rw [dif_pos (show (0 : Fin 3) ∈ scW.sKept by decide)]; rfl
  have h1 : scW.window j (1 : Fin 3) = (j 1).val := by
    unfold ScatterDims.window; rw [dif_pos (show (1 : Fin 3) ∈ scW.sKept by decide)]; rfl
  have h2 : scW.window j (2 : Fin 3) = (j 2).val := by
    unfold ScatterDims.window; rw [dif_pos (show (2 : Fin 3) ∈ scW.sKept by decide)]; rfl
  match a with
  | ⟨0, _⟩ => exact h0
  | ⟨1, _⟩ => exact h1
  | ⟨2, _⟩ => exact h2

/-- So update index `j` lands at `landW j`, inside the array. -/
theorem resW (idx : IVec S1 32) (hidx : ∀ k, idx k = 0#32) (j : S256x32x8.Idx) : scW.resultIdx? j idx = some (landW j) := by
  have h0 : (j 0).val < 256 := (j 0).isLt
  have h1 : (j 1).val < 32 := (j 1).isLt
  have h2 : (j 2).val < 8 := (j 2).isLt
  have hb : ∀ a, 0 ≤ scW.start j idx a + scW.window j a ∧ scW.start j idx a + scW.window j a < S256x32x16.size a := by
    intro a
    rw [startW idx hidx, windowW]
    match a with
    | ⟨0, _⟩ => show (0 : Int) ≤ 0 + ((j 0).val : Int) ∧ (0 : Int) + ((j 0).val : Int) < ((256 : Nat) : Int); omega
    | ⟨1, _⟩ => show (0 : Int) ≤ 0 + ((j 1).val : Int) ∧ (0 : Int) + ((j 1).val : Int) < ((32 : Nat) : Int); omega
    | ⟨2, _⟩ => show (0 : Int) ≤ 0 + ((j 2).val : Int) ∧ (0 : Int) + ((j 2).val : Int) < ((16 : Nat) : Int); omega
  unfold ScatterDims.resultIdx?
  rw [dif_pos hb]
  refine congrArg some (funext fun a => Fin.ext ?_)
  show (scW.start j idx a + scW.window j a).toNat = (landW j a).val
  rw [startW idx hidx, windowW]
  match a with
  | ⟨0, _⟩ => show ((0 : Int) + ((j 0).val : Int)).toNat = (j 0).val; omega
  | ⟨1, _⟩ => show ((0 : Int) + ((j 1).val : Int)).toNat = (j 1).val; omega
  | ⟨2, _⟩ => show ((0 : Int) + ((j 2).val : Int)).toNat = (j 2).val; omega

/-- Distinct update indices land on distinct elements. -/
theorem landW_injective : Function.Injective landW := by
  intro j j' h
  funext a
  apply Fin.ext
  match a with
  | ⟨0, _⟩ => exact congrArg (fun f : S256x32x16.Idx => (f 0).val) h
  | ⟨1, _⟩ => exact congrArg (fun f : S256x32x16.Idx => (f 1).val) h
  | ⟨2, _⟩ => exact congrArg (fun f : S256x32x16.Idx => (f 2).val) h

/-- THE PADDED WEIGHT, read at row `k`, column `q`: over any array of zeros `z` and any zero start index. -/
theorem padW_read (W : FVec Ideal S256x256 .f32) (z : S256x32x16.Idx → EReal) (hz : ∀ i, z i = 0) (idx : IVec S1 32)
    (hidx : ∀ k, idx k = 0#32) (k : Fin 256) (q : Fin 512) :
    shapeCast S256x512 (Host.scatter scW (fun _ b => b) z idx (shapeCast S256x32x8 W shapeCasts_S256x256_S256x32x8))
        shapeCasts_S256x32x16_S256x512 (ix2 k q) = padWAt W k q := by
  have hq : q.val < 512 := q.isLt
  have hk : k.val < 256 := k.isLt
  -- column q of the [256, 512] view is element (k, q / 16, q % 16) of the [256, 32, 16] array
  rw [shapeCast_apply _ shapeCasts_S256x32x16_S256x512 (ix2 k q)
    (ix3 k (⟨q.val / 16, by omega⟩ : Fin 32) (⟨q.val % 16, by omega⟩ : Fin 16)) (by
      rw [Shape.rowMajor_val_three, Shape.rowMajor_val_two]
      show (k.val * 32 + q.val / 16) * 16 + q.val % 16 = k.val * 512 + q.val
      omega)]
  unfold padWAt
  by_cases hh : q.val % 16 < 8
  · rw [dif_pos hh]
    have hland : ix3 k (⟨q.val / 16, by omega⟩ : Fin 32) (⟨q.val % 16, by omega⟩ : Fin 16)
        = landW (ix3 k (⟨q.val / 16, by omega⟩ : Fin 32) (⟨q.val % 16, hh⟩ : Fin 8)) := by
      funext a; match a with | ⟨0, _⟩ => rfl | ⟨1, _⟩ => rfl | ⟨2, _⟩ => rfl
    rw [hland, scatter_overwrite_image scW z idx _ landW (resW idx hidx) landW_injective]
    exact shapeCast_apply W shapeCasts_S256x256_S256x32x8 _ (ix2 k (⟨8 * (q.val / 16) + q.val % 16, by omega⟩ : Fin 256)) (by
      rw [Shape.rowMajor_val_two, Shape.rowMajor_val_three]
      show k.val * 256 + (8 * (q.val / 16) + q.val % 16) = (k.val * 32 + q.val / 16) * 8 + q.val % 16
      omega)
  · rw [dif_neg hh]
    rw [scatter_overwrite_off scW z idx _ landW (resW idx hidx) _ (fun j e => by
      have h2 : (j 2).val < 8 := (j 2).isLt
      have e2 : (j 2).val = q.val % 16 := congrArg (fun f : S256x32x16.Idx => (f 2).val) e
      omega)]
    exact hz _

/-! ## The bias -/

/-- Where update index `(c, h)` of the bias lands. -/
def landB (j : S32x8.Idx) : S32x16.Idx :=
  ix2 (⟨(j 0).val, (j 0).isLt⟩ : Fin 32) (⟨(j 1).val, by have h1 : (j 1).val < 8 := (j 1).isLt; omega⟩ : Fin 16)

theorem startB (idx : IVec S1 32) (hidx : ∀ k, idx k = 0#32) (j : S32x8.Idx) (a : Fin 2) : scB.start j idx a = 0 := by
  unfold ScatterDims.start
  split
  · rw [hidx]; rfl
  · rfl

theorem windowB (j : S32x8.Idx) (a : Fin 2) : scB.window j a = (j a).val := by
  have h0 : scB.window j (0 : Fin 2) = (j 0).val := by
    unfold ScatterDims.window; rw [dif_pos (show (0 : Fin 2) ∈ scB.sKept by decide)]; rfl
  have h1 : scB.window j (1 : Fin 2) = (j 1).val := by
    unfold ScatterDims.window; rw [dif_pos (show (1 : Fin 2) ∈ scB.sKept by decide)]; rfl
  match a with
  | ⟨0, _⟩ => exact h0
  | ⟨1, _⟩ => exact h1

theorem resB (idx : IVec S1 32) (hidx : ∀ k, idx k = 0#32) (j : S32x8.Idx) : scB.resultIdx? j idx = some (landB j) := by
  have h0 : (j 0).val < 32 := (j 0).isLt
  have h1 : (j 1).val < 8 := (j 1).isLt
  have hb : ∀ a, 0 ≤ scB.start j idx a + scB.window j a ∧ scB.start j idx a + scB.window j a < S32x16.size a := by
    intro a
    rw [startB idx hidx, windowB]
    match a with
    | ⟨0, _⟩ => show (0 : Int) ≤ 0 + ((j 0).val : Int) ∧ (0 : Int) + ((j 0).val : Int) < ((32 : Nat) : Int); omega
    | ⟨1, _⟩ => show (0 : Int) ≤ 0 + ((j 1).val : Int) ∧ (0 : Int) + ((j 1).val : Int) < ((16 : Nat) : Int); omega
  unfold ScatterDims.resultIdx?
  rw [dif_pos hb]
  refine congrArg some (funext fun a => Fin.ext ?_)
  show (scB.start j idx a + scB.window j a).toNat = (landB j a).val
  rw [startB idx hidx, windowB]
  match a with
  | ⟨0, _⟩ => show ((0 : Int) + ((j 0).val : Int)).toNat = (j 0).val; omega
  | ⟨1, _⟩ => show ((0 : Int) + ((j 1).val : Int)).toNat = (j 1).val; omega

theorem landB_injective : Function.Injective landB := by
  intro j j' h
  funext a
  apply Fin.ext
  match a with
  | ⟨0, _⟩ => exact congrArg (fun f : S32x16.Idx => (f 0).val) h
  | ⟨1, _⟩ => exact congrArg (fun f : S32x16.Idx => (f 1).val) h

/-- THE PADDED BIAS, read at `q`. -/
theorem padB_read (b : FVec Ideal S256 .f32) (z : S32x16.Idx → EReal) (hz : ∀ i, z i = 0) (idx : IVec S1 32)
    (hidx : ∀ k, idx k = 0#32) (q : Fin 512) :
    shapeCast S512 (Host.scatter scB (fun _ b => b) z idx (shapeCast S32x8 b shapeCasts_S256_S32x8))
        shapeCasts_S32x16_S512 (ix1 q) = padBAt b q := by
  have hq : q.val < 512 := q.isLt
  rw [shapeCast_apply _ shapeCasts_S32x16_S512 (ix1 q)
    (ix2 (⟨q.val / 16, by omega⟩ : Fin 32) (⟨q.val % 16, by omega⟩ : Fin 16)) (by
      rw [Shape.rowMajor_val_two, Shape.rowMajor_val_one]
      show q.val / 16 * 16 + q.val % 16 = q.val
      omega)]
  unfold padBAt
  by_cases hh : q.val % 16 < 8
  · rw [dif_pos hh]
    have hland : ix2 (⟨q.val / 16, by omega⟩ : Fin 32) (⟨q.val % 16, by omega⟩ : Fin 16)
        = landB (ix2 (⟨q.val / 16, by omega⟩ : Fin 32) (⟨q.val % 16, hh⟩ : Fin 8)) := by
      funext a; match a with | ⟨0, _⟩ => rfl | ⟨1, _⟩ => rfl
    rw [hland, scatter_overwrite_image scB z idx _ landB (resB idx hidx) landB_injective]
    exact shapeCast_apply b shapeCasts_S256_S32x8 _ (ix1 (⟨8 * (q.val / 16) + q.val % 16, by omega⟩ : Fin 256)) (by
      rw [Shape.rowMajor_val_one, Shape.rowMajor_val_two]
      show 8 * (q.val / 16) + q.val % 16 = q.val / 16 * 8 + q.val % 16
      omega)
  · rw [dif_neg hh]
    rw [scatter_overwrite_off scB z idx _ landB (resB idx hidx) _ (fun j e => by
      have h1 : (j 1).val < 8 := (j 1).isLt
      have e1 : (j 1).val = q.val % 16 := congrArg (fun f : S32x16.Idx => (f 1).val) e
      omega)]
    exact hz _

/-! ## The two arrays as the kernel finds them -/

variable (m : (ℓ : Loc nD τ sig) → Buf (Elt Ideal) ℓ)

/-- The array the kernel's second window stages is the padded weight of the launched `W`. -/
theorem v4_eq (c : Dev nD) :
    (V m c main_v4 : S256x512.Idx → EReal) = padW (m ((c : Thread nD τ).loc main_arg2)) := by
  have e : (V m c main_v4 : S256x512.Idx → EReal)
      = shapeCast S256x512 (Host.scatter scW (fun _ b => b)
          (broadcastInDim S256x32x16 ![] bcast_S_S256x32x16 (constant (F := Ideal) S_ .f32 0x00000000#32))
          (broadcastInDim S1 ![] bcast_S_S1 (constantI S_ 32 0#32))
          (shapeCast S256x32x8 (m ((c : Thread nD τ).loc main_arg2)) shapeCasts_S256x256_S256x32x8))
        shapeCasts_S256x32x16_S256x512 := by
    show StableHlo.after hostOps0 (fun b => m (c, b)) (Proc.devRef .tc main_v4) = _
    after_results
    rfl
  rw [e]
  funext j
  obtain ⟨k, q, rfl⟩ : ∃ (k : Fin 256) (q : Fin 512), j = ix2 k q := ⟨j 0, j 1, eq_ix2 j⟩
  exact padW_read _ _ (fun _ => Ideal.ofBits_zero_f32) _ (fun _ => rfl) k q

/-- The array its third window stages is the padded bias of the launched `b`. -/
theorem v9_eq (c : Dev nD) :
    (V m c main_v9 : S512.Idx → EReal) = padB (m ((c : Thread nD τ).loc main_arg3)) := by
  have e : (V m c main_v9 : S512.Idx → EReal)
      = shapeCast S512 (Host.scatter scB (fun _ b => b)
          (broadcastInDim S32x16 ![] bcast_S_S32x16 (constant (F := Ideal) S_ .f32 0x00000000#32))
          (broadcastInDim S1 ![] bcast_S_S1 (constantI S_ 32 0#32))
          (shapeCast S32x8 (m ((c : Thread nD τ).loc main_arg3)) shapeCasts_S256_S32x8))
        shapeCasts_S32x16_S512 := by
    show StableHlo.after hostOps0 (fun b => m (c, b)) (Proc.devRef .tc main_v9) = _
    after_results
    rfl
  rw [e]
  funext j
  obtain ⟨q, rfl⟩ : ∃ q : Fin 512, j = ix1 q := ⟨j 0, eq_ix1 j⟩
  exact padB_read _ _ (fun _ => Ideal.ofBits_zero_f32) _ (fun _ => rfl) q

end Cert.KernelIdeal.HostPad

end
-- ==== Proof.Payload.lean ====
/-
  The body's arithmetic at an index.

  At one grid point the body multiplies its 8192 × 256 block of `x` with the whole 256 × 512 padded weight into a zero
  accumulator and adds the 512-entry padded bias, broadcast down the rows. On the extended reals the product read at
  row `p`, column `q` is the sum over the 256 contracted positions of the two factors (the accumulator's zero adds
  nothing), and the broadcast row read there is the bias at `q`. So the stored value at `(p, q)` is
  `∑ k, x (p, k) · w (k, q) + b q`.
-/
import proofs.«124166_j29557964931628_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BodyValue

open Cert.KernelIdeal Cert.KernelIdeal.Gen Idealize.ShloMosaic Idealize.ShloMosaic.ValueIdx

/-- The product's dimension numbers: rows of the left factor, columns of the right, one contracted axis of 256. -/
abbrev dot := dot_S8192x256_S256x512_S8192x512_1_0_0_1_n_n

/-- The left factor's index at output `(p, q)` and contracted position `k` is `(p, k)`. -/
theorem lhsIdx_eq (p : Fin 8192) (q : Fin 512) (k : Fin 256) :
    dot.lhsIdx (ix2 p q) ((contrEquiv1 dot 256 rfl rfl).symm k) = ix2 p k := by
  have hk := contrEquiv1_symm_val dot 256 rfl rfl k
  funext a
  apply Fin.ext
  match a with
  | ⟨0, _⟩ =>
    show (dot.lhsIdx (ix2 p q) ((contrEquiv1 dot 256 rfl rfl).symm k) 0).val = p.val
    unfold DotDims.lhsIdx
    rw [dif_neg (show ¬(0 : Fin S8192x256.rank) ∈ dot.lhsBatch by decide),
      dif_pos (show (0 : Fin S8192x256.rank) ∈ dot.lhsNonContracting by decide)]
    rfl
  | ⟨1, _⟩ => exact (dot.lhsIdx_val_of_single rfl (ix2 p q) _).trans hk

/-- The right factor's index there is `(k, q)`. -/
theorem rhsIdx_eq (p : Fin 8192) (q : Fin 512) (k : Fin 256) :
    dot.rhsIdx (ix2 p q) ((contrEquiv1 dot 256 rfl rfl).symm k) = ix2 k q := by
  have hk := contrEquiv1_symm_val dot 256 rfl rfl k
  funext a
  apply Fin.ext
  match a with
  | ⟨0, _⟩ => exact (dot.rhsIdx_val_of_single rfl (ix2 p q) _).trans hk
  | ⟨1, _⟩ =>
    show (dot.rhsIdx (ix2 p q) ((contrEquiv1 dot 256 rfl rfl).symm k) 1).val = q.val
    unfold DotDims.rhsIdx
    rw [dif_neg (show ¬(1 : Fin S256x512.rank) ∈ dot.rhsBatch by decide),
      dif_pos (show (1 : Fin S256x512.rank) ∈ dot.rhsNonContracting by decide)]
    rfl

/-- The product into the zero accumulator, read at `(p, q)`: the sum of the factors' products over the contracted axis. -/
theorem product_at (x0 : FVec Ideal S8192x256 .f32) (x1 : FVec Ideal S256x512 .f32) (p : Fin 8192) (q : Fin 512) :
    matmul (F := Ideal) dot none x0 x1 (constant (F := Ideal) S8192x512 .f32 0x00000000#32) (ix2 p q)
      = ∑ k : Fin 256, x0 (ix2 p k) * x1 (ix2 k q) := by
  simp only [matmul]
  rw [Ideal.matmul_constant_zero_apply, ← Equiv.sum_comp (contrEquiv1 dot 256 rfl rfl).symm]
  refine Finset.sum_congr rfl fun k _ => ?_
  rw [lhsIdx_eq, rhsIdx_eq]

/-- The bias, viewed as one row and broadcast down the 8192 rows, read at `(p, q)`: the bias at `q`. -/
theorem biasRow_at (x2 : FVec Ideal S512 .f32) (p : Fin 8192) (q : Fin 512) :
    broadcastTo S8192x512 (shapeCast S1x512 (shapeCast S512 x2 shapeCasts_S512_S512) shapeCasts_S512_S1x512)
        broadcasts_S1x512_S8192x512 (ix2 p q) = x2 (ix1 q) := by
  rw [shapeCast_self]
  rw [broadcastTo_apply _ broadcasts_S1x512_S8192x512 (ix2 p q) (ix2 (⟨0, Nat.one_pos⟩ : Fin 1) q) (fun a => by
    match a with
    | ⟨0, _⟩ => show 0 = if (1 : Nat) = 1 then 0 else _; rw [if_pos rfl]
    | ⟨1, _⟩ => show q.val = if (512 : Nat) = 1 then 0 else q.val; rw [if_neg (by decide)])]
  exact shapeCast_apply x2 shapeCasts_S512_S1x512 (ix2 (⟨0, Nat.one_pos⟩ : Fin 1) q) (ix1 q) (by
    rw [Shape.rowMajor_val_one, Shape.rowMajor_val_two]
    show q.val = 0 * 512 + q.val
    omega)

/-- THE STORED VALUE at `(p, q)`: the product there plus the bias at `q`. -/
theorem stored_at (x0 : FVec Ideal S8192x256 .f32) (x1 : FVec Ideal S256x512 .f32) (x2 : FVec Ideal S512 .f32)
    (p : Fin 8192) (q : Fin 512) :
    k0_pay1 (F := Ideal) x0 x1 x2 (ix2 p q) = (∑ k : Fin 256, x0 (ix2 p k) * x1 (ix2 k q)) + x2 (ix1 q) := by
  unfold k0_pay1
  rw [addf_apply, shapeCast_self, product_at, biasRow_at]

end Cert.KernelIdeal.BodyValue

end
-- ==== Proof.KernelValue.lean ====
/-
  The kernel's result is the specification.

  The grid has 16 points; point `t` multiplies rows `8192 t … 8192 t + 8191` of `x` with the whole padded weight, adds
  the padded bias and writes rows `8192 t …` of a [131072, 512] array. Every block read sits where its index map says
  (block index × block size + the coordinate inside the block): the block of `x` at row offset `8192 t`, the weight and
  the bias at offset zero. So what point `t` writes back is block `t` of ONE function of the arguments, the product with
  the padded weight plus the padded bias (`flat`). The 16 row blocks cover the array (row `r` is in block `r / 8192`), so
  after the run the array is that function. The line after the kernel views each 512-entry row as 32 capsules of 16:
  entry `(r, c, h)` is row `r`, column `16 c + h`, which the specification's law identifies with the capsule entry.
-/
import proofs.«124166_j29557964931628_2_alg».proof.Proof.Gen.KernelIdeal.Frame
import proofs.«124166_j29557964931628_2_alg».proof.Proof.HostPad
import proofs.«124166_j29557964931628_2_alg».proof.Proof.Payload
import proofs.«124166_j29557964931628_2_alg».proof.Proof.Spec
import Idealize.ShloMosaic.Lib.Pipeline.Value
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.Capsule
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The four index maps over the 16 points: the block of `x` and the output block move down the rows with the point; the
    weight and the bias stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt N_0

/-! ## The blocks a point reads and writes -/

/-- The block of `x` at point `t` holds rows `8192 t + p` of the launched `x`. -/
theorem xblk_at (c : Dev nD) (t : Fin cfg0.N) (p : Fin 8192) (k : Fin 256) :
    iblk m c 0 t (ix2 p k)
      = m ((c : Thread nD τ).loc main_arg0) (ix2 (⟨t.val * 8192 + p.val, by have := point_lt t; omega⟩ : Fin 131072) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 8192 + 1 * p.val = t.val * 8192 + p.val; omega
  | ⟨1, _⟩ => show win0_0.index t (1 : Fin 2) * 256 + 1 * k.val = k.val; omega

/-- The weight block at every point is the whole padded weight. -/
theorem wblk_at (c : Dev nD) (t : Fin cfg0.N) (k : Fin 256) (q : Fin 512) :
    iblk m c 1 t (ix2 k q) = padWAt (m ((c : Thread nD τ).loc main_arg2)) k q := by
  obtain ⟨-, -, e2, e3, -⟩ := idx_facts t
  show V m c main_v4 (((cfg0.win 1).blk t).view.emb (ix2 k q)) = _
  have hemb : ((cfg0.win 1).blk t).view.emb (ix2 k q) = ix2 k q := by
    funext a
    apply Fin.ext
    match a with
    | ⟨0, _⟩ => show win0_1.index t (0 : Fin 2) * 256 + 1 * k.val = k.val; omega
    | ⟨1, _⟩ => show win0_1.index t (1 : Fin 2) * 512 + 1 * q.val = q.val; omega
  rw [hemb]
  exact congrFun (HostPad.v4_eq m c) (ix2 k q)

/-- The bias block at every point is the whole padded bias. -/
theorem bblk_at (c : Dev nD) (t : Fin cfg0.N) (q : Fin 512) :
    iblk m c 2 t (ix1 q) = padBAt (m ((c : Thread nD τ).loc main_arg3)) q := by
  obtain ⟨-, -, -, -, e4, -⟩ := idx_facts t
  show V m c main_v9 (((cfg0.win 2).blk t).view.emb (ix1 q)) = _
  have hemb : ((cfg0.win 2).blk t).view.emb (ix1 q) = ix1 q := by
    funext a
    apply Fin.ext
    match a with
    | ⟨0, _⟩ => show win0_2.index t (0 : Fin 1) * 512 + 1 * q.val = q.val; omega
  rw [hemb]
  exact congrFun (HostPad.v9_eq m c) (ix1 q)

/-- The output block at point `t` sits at rows `8192 t + p`. -/
theorem oblk_emb (t : Fin cfg0.N) (p : Fin 8192) (q : Fin 512) :
    ((cfg0.win 3).blk t).view.emb (ix2 p q)
      = ix2 (⟨t.val * 8192 + p.val, by have := point_lt t; omega⟩ : Fin 131072) q := by
  obtain ⟨-, -, -, -, -, e5, e6⟩ := idx_facts t
  funext a
  apply Fin.ext
  match a with
  | ⟨0, _⟩ => show win0_3.index t (0 : Fin 2) * 8192 + 1 * p.val = t.val * 8192 + p.val; omega
  | ⟨1, _⟩ => show win0_3.index t (1 : Fin 2) * 512 + 1 * q.val = q.val; omega

/-- The body's stored value at a point, over any three blocks that read as above: the padded product at the block's row. -/
theorem point_value (x0 : FVec Ideal S8192x256 .f32) (x1 : FVec Ideal S256x512 .f32) (x2 : FVec Ideal S512 .f32)
    (X : SX.Idx → EReal) (W : SW.Idx → EReal) (B : SB.Idx → EReal) (tv : Nat) (ht : tv < 16)
    (h0 : ∀ (p : Fin 8192) (k : Fin 256), x0 (ix2 p k) = X (ix2 (⟨tv * 8192 + p.val, by omega⟩ : Fin 131072) k))
    (h1 : ∀ (k : Fin 256) (q : Fin 512), x1 (ix2 k q) = padWAt W k q)
    (h2 : ∀ q : Fin 512, x2 (ix1 q) = padBAt B q) (p : Fin 8192) (q : Fin 512) :
    k0_pay1 (F := Ideal) x0 x1 x2 (ix2 p q) = flatAt X W B (⟨tv * 8192 + p.val, by omega⟩ : Fin 131072) q := by
  rw [BodyValue.stored_at]
  unfold flatAt
  simp only [h0, h1, h2]

/-- WHAT POINT `t` WRITES BACK is block `t` of the padded product of the launched arguments. -/
theorem flushed_eq (c : Dev nD) (t : Fin cfg0.N) :
    (dats m 0 c).flushed 3 t = ((cfg0.win 3).blk t).view.read (Elt Ideal)
      (flat (m ((c : Thread nD τ).loc main_arg0)) (m ((c : Thread nD τ).loc main_arg2)) (m ((c : Thread nD τ).loc main_arg3))) := by
  show (cfg0.win 3).cut (grid0.coords t) ((dats m 0 c).after 3 t) = _
  rw [after0_3]
  unfold out0_3
  rw [View.canon_unit_zero zero2]
  simp only [View.ld_unit_zero (S := S8192x256) zero2, View.ld_unit_zero (S := S256x512) zero2, View.ld_unit_zero (S := S512) zero1]
  funext y
  obtain ⟨p, q, rfl⟩ : ∃ (p : Fin 8192) (q : Fin 512), y = ix2 p q := ⟨y 0, y 1, eq_ix2 y⟩
  show k0_pay1 (iblk m c 0 t) (iblk m c 1 t) (iblk m c 2 t) (ix2 p q)
    = flat (m ((c : Thread nD τ).loc main_arg0)) (m ((c : Thread nD τ).loc main_arg2)) (m ((c : Thread nD τ).loc main_arg3))
        (((cfg0.win 3).blk t).view.emb (ix2 p q))
  rw [oblk_emb t p q]
  exact point_value (iblk m c 0 t) (iblk m c 1 t) (iblk m c 2 t) _ _ _ t.val (point_lt t)
    (xblk_at m c t) (wblk_at m c t) (bblk_at m c t) p q

/-! ## From the blocks to the array -/

/-- An index is in point `t`'s output block iff each coordinate is in the block's range on its axis. -/
theorem mem_blk (t : Fin cfg0.N) (i : S131072x512.Idx) :
    i ∈ ((cfg0.win 3).blk t).view.set ↔ ∀ a : Fin 2, win0_3.index t a * S8192x512.size a ≤ (i a).val
      ∧ (i a).val < win0_3.index t a * S8192x512.size a + S8192x512.size a := by
  show i ∈ ((View.whole main_v10).slice (win0_3.rect t)).set ↔ _
  rw [View.set_slice_whole, Rect.mem_set_unit]
  exact Iff.rfl

/-- Every row is in the block of the point `row / 8192`. -/
theorem cover (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ : ∃ t : Fin cfg0.N, t.val = (i 0).val / 8192 :=
    ⟨⟨(i 0).val / 8192, lt_of_lt_of_eq (by omega : (i 0).val / 8192 < 16) N_0.symm⟩, rfl⟩
  obtain ⟨-, -, -, -, -, e5, e6⟩ := idx_facts t
  refine ⟨t, flush0_3 t, ?_⟩
  rw [mem_blk]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 512 ≤ (i 1).val ∧ (i 1).val < win0_3.index t (1 : Fin 2) * 512 + 512
    omega

/-- THE ARRAY after the kernel: the padded product of the launched arguments. -/
theorem final (c : Dev nD) : (dats m 0 c).arrAt 3 cfg0.N
    = flat (m ((c : Thread nD τ).loc main_arg0)) (m ((c : Thread nD τ).loc main_arg2)) (m ((c : Thread nD τ).loc main_arg3)) :=
  (dats m 0 c).arrAt_eq_of_cover 3 _ (fun t _ => flushed_eq m c t) cover

/-! ## The line after the kernel -/

/-- Entry `(r, c, h)` of the [131072, 32, 16] view of a [131072, 512] array is row `r`, column `16 c + h`. -/
theorem regroup_at (f : S131072x512.Idx → EReal) (r : Fin 131072) (cc : Fin 32) (h : Fin 16) :
    shapeCast S131072x32x16 f shapeCasts_S131072x512_S131072x32x16 (ix3 r cc h)
      = f (ix2 r (⟨16 * cc.val + h.val, by omega⟩ : Fin 512)) :=
  shapeCast_apply f shapeCasts_S131072x512_S131072x32x16 (ix3 r cc h) (ix2 r (⟨16 * cc.val + h.val, by omega⟩ : Fin 512)) (by
    rw [Shape.rowMajor_val_two, Shape.rowMajor_val_three]
    show r.val * 512 + (16 * cc.val + h.val) = (r.val * 32 + cc.val) * 16 + h.val
    omega)

/-- THE RESULT after the whole program: the specification of the launched arguments. -/
theorem tail_eq (c : Dev nD) :
    Pipeline.afterTail₀ cfgs (dats m) 0 (V0 m) [hostOps1] c main_v11
      = capsules (m ((c : Thread nD τ).loc main_arg0)) (m ((c : Thread nD τ).loc main_arg2)) (m ((c : Thread nD τ).loc main_arg3)) := by
  have e : Pipeline.afterTail₀ cfgs (dats m) 0 (V0 m) [hostOps1] c main_v11
      = shapeCast S131072x32x16
          (Pipeline.withArrays spec0 c (V0 m c) (fun w => (dats m 0 c).arrAt w cfg0.N) (Proc.devRef .tc main_v10))
          shapeCasts_S131072x512_S131072x32x16 := by
    unfold Pipeline.afterTail₀
    show StableHlo.after hostOps1 _ (Proc.devRef .tc main_v11) = _
    after_results
    rfl
  have ew : Pipeline.withArrays spec0 c (V0 m c) (fun w => (dats m 0 c).arrAt w cfg0.N) (Proc.devRef .tc main_v10)
      = flat (m ((c : Thread nD τ).loc main_arg0)) (m ((c : Thread nD τ).loc main_arg2)) (m ((c : Thread nD τ).loc main_arg3)) :=
    (Pipeline.withArrays_arr spec0 launch0.win.arr_inj c _ _ 3).trans (final m c)
  rw [e, ew]
  funext i
  obtain ⟨r, cc, h, rfl⟩ : ∃ (r : Fin 131072) (cc : Fin 32) (h : Fin 16), i = ix3 r cc h := ⟨i 0, i 1, i 2, eq_ix3 i⟩
  rw [regroup_at]
  exact flatAt_eq_capsuleAt _ _ _ r cc h

/-! ## The run -/

/-- Every weakly fair execution of the program terminates with the result at the specification of the launched
    arguments and the six arguments unchanged. -/
theorem run : θ_run defs (onTc (τ := τ) (main (F := Ideal))) ⟨m, fun _ => 0, ρ⟩ (fun r => ∀ c : Dev nD,
      r.2.mem ((c.tc : Thread nD τ).loc main_v11)
        = capsules (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.RefValue.lean ====
/-
  The reference's result is the specification.

  The reference projects every row of `x` through all of `W`, adds the bias, views each 256-entry row as 32 groups of 8,
  and joins each group with 8 zeros along the last axis. Read at (row `r`, capsule `c`, entry `h`): for `h < 8` the
  entry comes from the first piece, at position `(r·32 + c)·8 + h` of the row-major order, which is row `r`, column
  `8c + h` of the projection; for `h ≥ 8` it comes from the block of zeros.
-/
import proofs.«124166_j29557964931628_2_alg».proof.Proof.Gen.ReferenceIdeal.Read
import proofs.«124166_j29557964931628_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Capsule

/-- Position `(r·32 + c)·8 + h` of a row-major [131072, 256] array is row `r`, column `8c + h`. -/
theorem group_idx (r : Fin 131072) (c : Fin 32) (h : Fin 8) :
    idx_main_v4 (ix3 r c h) = ix2 r (⟨8 * c.val + h.val, by omega⟩ : Fin 256) := by
  funext a
  apply Fin.ext
  match a with
  | ⟨0, _⟩ => show ((r.val * 32 + c.val) * 8 + h.val) / 256 = r.val; omega
  | ⟨1, _⟩ => show ((r.val * 32 + c.val) * 8 + h.val) % 256 = 8 * c.val + h.val; omega

/-- The projection's factors at row `r`, column `q` and contracted position `k`. -/
theorem proj_lidx (r : Fin 131072) (q k : Fin 256) : lidx_main_v0 (ix2 r q) k = ix2 r k := by
  funext a; match a with | ⟨0, _⟩ => rfl | ⟨1, _⟩ => rfl
theorem proj_ridx (r : Fin 131072) (q k : Fin 256) : ridx_main_v0 (ix2 r q) k = ix2 k q := by
  funext a; match a with | ⟨0, _⟩ => rfl | ⟨1, _⟩ => rfl
/-- The bias broadcast over the rows reads the bias at the column. -/
theorem bias_idx (r : Fin 131072) (q : Fin 256) : idx_main_v1 (idx_main_v2 (ix2 r q)) = ix1 q := by
  funext a; match a with | ⟨0, _⟩ => rfl

/-- THE REFERENCE IS THE SPECIFICATION, index by index. -/
theorem result_eq (x0 : (⟨S131072x256, .f32⟩ : BufTy).Contents (Elt Ideal)) (x2 : (⟨S256x256, .f32⟩ : BufTy).Contents (Elt Ideal))
    (x3 : (⟨S256, .f32⟩ : BufTy).Contents (Elt Ideal)) :
    val_main_v11 (F := Ideal) x0 x2 x3 = capsules x0 x2 x3 := by
  funext i
  obtain ⟨r, c, h, rfl⟩ : ∃ (r : Fin 131072) (c : Fin 32) (h : Fin 16), i = ix3 r c h := ⟨i 0, i 1, i 2, eq_ix3 i⟩
  show val_main_v11 (F := Ideal) x0 x2 x3 (ix3 r c h) = capsuleAt x0 x2 x3 r c h
  unfold val_main_v11 capsuleAt
  by_cases hh : h.val < 8
  · rw [dif_pos hh]
    rw [concatenate_pair_apply_left (t := S131072x32x16) (s₁ := S131072x32x8) (s₂ := S131072x32x8) (2 : Fin 3) _ _ concatenates_S131072x32x8_S131072x32x8_S131072x32x16_d2 (ix3 r c h) rfl
      (ix3 r c (⟨h.val, hh⟩ : Fin 8)) (fun b => by match b with | ⟨0, _⟩ => rfl | ⟨1, _⟩ => rfl | ⟨2, _⟩ => rfl)]
    rw [val_main_v4_apply, group_idx, val_main_v3_apply, val_main_v0_apply, val_main_v2_apply, val_main_v1_apply, bias_idx]
    simp only [proj_lidx, proj_ridx]
    rfl
  · rw [dif_neg hh]
    rw [concatenate_pair_apply_right (t := S131072x32x16) (s₁ := S131072x32x8) (s₂ := S131072x32x8) (2 : Fin 3) _ _ concatenates_S131072x32x8_S131072x32x8_S131072x32x16_d2 (ix3 r c h) rfl rfl
      (ix3 r c (⟨h.val - 8, by omega⟩ : Fin 8))
      (fun b hb => by
        match b with
        | ⟨0, _⟩ => rfl
        | ⟨1, _⟩ => rfl
        | ⟨2, _⟩ => exact absurd rfl hb)
      (by show h.val - 8 + 8 = h.val; omega)]
    rw [val_main_v10_apply, val_main_cst_apply]
    exact Ideal.ofBits_zero_f32

end Cert.ReferenceIdeal.RefValue

end
-- ==== Proof.lean ====
/-
  The five claims of this certificate.

  Both programs compute, for a batch of 256 scalar features, 32 capsules of 16 entries: the first 8 entries of capsule `c`
  are the linear projection `x · W + b` at columns `8c … 8c+7`, the last 8 are zero; the second result is the vector
  input returned as it came. The reference projects, regroups and joins with zeros. The kernel interleaves zero columns
  into the weight and the bias on the host, multiplies once by the padded weight on a grid of 16 row blocks, adds the
  padded bias, and regroups the 512-entry rows. At the extended reals the two agree entry by entry: a padded column
  contributes products with zero, which vanish at every extended real, so the precondition is never opened.

  The three frames are the generated frame runs (the reference's is its generated run with the result dropped), the
  idealization rewrote nothing, and the equivalence sets the kernel's run (Proof/KernelValue.lean) beside the
  reference's run read at the specification (Proof/RefValue.lean), the arguments' agreement rewritten.
-/
import proofs.«124166_j29557964931628_2_alg».proof.Defs
import proofs.«124166_j29557964931628_2_alg».proof.Proof.Gen.Kernel
import proofs.«124166_j29557964931628_2_alg».proof.Proof.Gen.Kernel.Skeleton
import proofs.«124166_j29557964931628_2_alg».proof.Proof.Gen.Kernel.Launch
import proofs.«124166_j29557964931628_2_alg».proof.Proof.Gen.Kernel.Points
import proofs.«124166_j29557964931628_2_alg».proof.Proof.Gen.Kernel.Frame
import proofs.«124166_j29557964931628_2_alg».proof.Proof.Gen.KernelIdeal
import proofs.«124166_j29557964931628_2_alg».proof.Proof.Gen.KernelIdeal.Skeleton
import proofs.«124166_j29557964931628_2_alg».proof.Proof.Gen.KernelIdeal.Launch
import proofs.«124166_j29557964931628_2_alg».proof.Proof.Gen.KernelIdeal.Points
import proofs.«124166_j29557964931628_2_alg».proof.Proof.Gen.KernelIdeal.Frame
import proofs.«124166_j29557964931628_2_alg».proof.Proof.Gen.ReferenceIdeal
import proofs.«124166_j29557964931628_2_alg».proof.Proof.Gen.ReferenceIdeal.Run
import proofs.«124166_j29557964931628_2_alg».proof.Proof.Gen.ReferenceIdeal.Read
import proofs.«124166_j29557964931628_2_alg».proof.Proof.Gen.Pre_finite_inputs
import proofs.«124166_j29557964931628_2_alg».proof.Proof.KernelValue
import proofs.«124166_j29557964931628_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the capsules of the specification and the
    vector input unchanged. -/
theorem algebraic : Cert.algebraic_KernelIdeal_ReferenceIdeal := by
  intro m ρ m' ρ' _ hagree
  refine ⟨fun c => Cert.Capsule.capsules (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1), ?_, ?_⟩
  · exact (θ_run Cert.KernelIdeal.defs _ _).mono
      (fun _ h c => ⟨(h c).1, (h c).2.2.1, (h c).2.1, (h c).2.2.1, (h c).2.2.2.1, (h c).2.2.2.2.1, (h c).2.2.2.2.2.1, (h c).2.2.2.2.2.2⟩)
      (Cert.KernelIdeal.KernelValue.run m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v11_eq, Cert.ReferenceIdeal.RefValue.result_eq,
        (hagree c).1, (hagree c).2.2.1, (hagree c).2.2.2.1]
    · rw [(h c).2.1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
